-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3072 : Shape := ⟨2, ![64, 3072]⟩
abbrev S_ : Shape := ⟨0, ![]⟩

class Facts : Prop where
  bcast_S_S64x3072 : S_.BroadcastsInDim S64x3072 (![] : Fin 0 → Fin S64x3072.rank)
  reducesTo_S64x3072_S_d0_1 : S64x3072.ReducesTo [0, 1] S_
  h_S_ : 0 < S_.numel

variable [Facts]

def fn {F : FTy → Type} [FloatOps F] (main_arg0 : FVec F S64x3072 .f32) : IVec S_ 1 :=
  let main_v0 : FVec F S64x3072 .f32 := Host.absf main_arg0
  let main_cst : FVec F S_ .f32 := constant S_ .f32 0x7F800000#32
  let main_v1 : FVec F S64x3072 .f32 := broadcastInDim S64x3072 ![] bcast_S_S64x3072 main_cst
  let main_v2 : IVec S64x3072 1 := cmpf .olt main_v0 main_v1
  let main_c : IVec S_ 1 := constantI S_ 1 1#1
  let main_v3 : IVec S_ 1 := (fun x v => Host.reduce IntOp.andi x v reducesTo_S64x3072_S_d0_1 h_S_) main_v2 main_c
  main_v3
-- ==== Kernel.lean ====
abbrev S64x3072 : Shape := ⟨2, ![64, 3072]⟩
abbrev S64x1024x3 : Shape := ⟨3, ![64, 1024, 3]⟩
abbrev S64x3x1024 : Shape := ⟨3, ![64, 3, 1024]⟩
abbrev S1x1 : Shape := ⟨2, ![1, 1]⟩
abbrev S1x128x3 : Shape := ⟨3, ![1, 128, 3]⟩
abbrev S1x3x1024 : Shape := ⟨3, ![1, 3, 1024]⟩
abbrev S128x3 : Shape := ⟨2, ![128, 3]⟩
abbrev S128x1 : Shape := ⟨2, ![128, 1]⟩
abbrev S128 : Shape := ⟨1, ![128]⟩
abbrev S3x1024 : Shape := ⟨2, ![3, 1024]⟩
abbrev S1x1024 : Shape := ⟨2, ![1, 1024]⟩
abbrev S1024 : Shape := ⟨1, ![1024]⟩
abbrev S128x1024 : Shape := ⟨2, ![128, 1024]⟩
abbrev S1 : Shape := ⟨1, ![1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S64x3072, .f32⟩
  | .hbm, ⟨1, _⟩ => ⟨S64x1024x3, .f32⟩
  | .hbm, ⟨2, _⟩ => ⟨S64x3x1024, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x128x3, .f32⟩
  | .local _ .vmem, ⟨1, _⟩ => ⟨S1x128x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1, .f32⟩
  | _, _ => ⟨S64x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![64, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S64x3072_S64x1024x3 : S64x3072.ShapeCasts S64x1024x3
  transposes_S64x1024x3_S64x3x1024_0_2_1 : S64x1024x3.Transposes [0, 2, 1] S64x3x1024
  inb_S1x1_S1x1_0_0 : ∀ a, (![0, 0] : Fin 2 → Nat) a + S1x1.size a ≤ S1x1.size a
  h_S1x1 : 0 < S1x1.numel
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  slices_S128x3_o0_0_S128x1 : S128x3.Slices ![0, 0] S128x1
  shapeCasts_S128x1_S128 : S128x1.ShapeCasts S128
  slices_S128x3_o0_1_S128x1 : S128x3.Slices ![0, 1] S128x1
  slices_S128x3_o0_2_S128x1 : S128x3.Slices ![0, 2] S128x1
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S3x1024_o0_0_S1x1024 : S3x1024.Slices ![0, 0] S1x1024
  shapeCasts_S1x1024_S1024 : S1x1024.ShapeCasts S1024
  slices_S3x1024_o1_0_S1x1024 : S3x1024.Slices ![1, 0] S1x1024
  slices_S3x1024_o2_0_S1x1024 : S3x1024.Slices ![2, 0] S1x1024
  shapeCasts_S128_S128x1 : S128.ShapeCasts S128x1
  shapeCasts_S1024_S1x1024 : S1024.ShapeCasts S1x1024
  broadcasts_S128x1_S128x1024 : S128x1.Broadcasts S128x1024
  broadcasts_S1x1024_S128x1024 : S1x1024.Broadcasts S128x1024
  iota_S128x1024_d0_w32 : S128x1024.Iotas .tc 32 [0]
  iota_S128x1024_d1_w32 : S128x1024.Iotas .tc 32 [1]
  natLt_1_32 : 1 < 32
  reduces_S128x1024_S128 : S128x1024.Reduces [1] S128
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S64x1024x3.size a
  hwx0_0 : ∀ i : grid0.Coords, EltTy.bits .f32 = 32 ∨ (Rect.block (s := S64x1024x3) S1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S64x3x1024.size a
  hwx0_1 : ∀ i : grid0.Coords, EltTy.bits .f32 = 32 ∨ (Rect.block (s := S64x3x1024) S1x3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3072 : Shape := ⟨2, ![64, 3072]⟩
abbrev S64x1024x3 : Shape := ⟨3, ![64, 1024, 3]⟩
abbrev S64x1024x1x3 : Shape := ⟨4, ![64, 1024, 1, 3]⟩
abbrev S64x1x1024x3 : Shape := ⟨4, ![64, 1, 1024, 3]⟩
abbrev S64x1024x1024x3 : Shape := ⟨4, ![64, 1024, 1024, 3]⟩
abbrev S_ : Shape := ⟨0, ![]⟩
abbrev S64x1024x1024 : Shape := ⟨3, ![64, 1024, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩

abbrev nBuf : Space → Nat
  | .hbm => 37
  | .vmem => 0
  | .smem => 0
  | _ => 0

abbrev bufTy : (tb : Table) → Fin (tcTables nBuf tb) → BufTy
  | .hbm, ⟨0, _⟩ => ⟨S64x3072, .f32⟩
  | .hbm, ⟨1, _⟩ => ⟨S64x1024x3, .f32⟩
  | .hbm, ⟨2, _⟩ => ⟨S64x1024x1x3, .f32⟩
  | .hbm, ⟨3, _⟩ => ⟨S64x1x1024x3, .f32⟩
  | .hbm, ⟨4, _⟩ => ⟨S64x1024x1024x3, .f32⟩
  | .hbm, ⟨5, _⟩ => ⟨S64x1024x1024x3, .f32⟩
  | .hbm, ⟨6, _⟩ => ⟨S64x1024x1024x3, .f32⟩
  | .hbm, ⟨7, _⟩ => ⟨S64x1024x1024x3, .f32⟩
  | .hbm, ⟨8, _⟩ => ⟨S_, .f32⟩
  | .hbm, ⟨9, _⟩ => ⟨S64x1024x1024, .f32⟩
  | .hbm, ⟨10, _⟩ => ⟨S_, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S1024, .i32⟩
  | .hbm, ⟨15, _⟩ => ⟨S1024x1, .i32⟩
  | .hbm, ⟨16, _⟩ => ⟨S1x1024, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S1024x1024, .f32⟩
  | .hbm, ⟨21, _⟩ => ⟨S_, .f32⟩
  | .hbm, ⟨22, _⟩ => ⟨S64x1024x1024, .f32⟩
  | .hbm, ⟨23, _⟩ => ⟨S64x1024x1024, .f32⟩
  | .hbm, ⟨24, _⟩ => ⟨S_, .f32⟩
  | .hbm, ⟨25, _⟩ => ⟨S64x1024x1024, .f32⟩
  | .hbm, ⟨26, _⟩ => ⟨S64x1024x1024, .f32⟩
  | .hbm, ⟨27, _⟩ => ⟨S1x1024x1024, .f32⟩
  | .hbm, ⟨28, _⟩ => ⟨S64x1024x1024, .f32⟩
  | .hbm, ⟨29, _⟩ => ⟨S64x1024x1024, .f32⟩
  | .hbm, ⟨30, _⟩ => ⟨S64x1024x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S64x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  shapeCasts_S64x3072_S64x1024x3 : S64x3072.ShapeCasts S64x1024x3
  bcast_S64x1024x3_S64x1024x1x3_0_1_3 : S64x1024x3.BroadcastsInDim S64x1024x1x3 (![0, 1, 3] : Fin 3 → Fin S64x1024x1x3.rank)
  bcast_S64x1024x3_S64x1x1024x3_0_2_3 : S64x1024x3.BroadcastsInDim S64x1x1024x3 (![0, 2, 3] : Fin 3 → Fin S64x1x1024x3.rank)
  bcast_S64x1024x1x3_S64x1024x1024x3_0_1_2_3 : S64x1024x1x3.BroadcastsInDim S64x1024x1024x3 (![0, 1, 2, 3] : Fin 4 → Fin S64x1024x1024x3.rank)
  bcast_S64x1x1024x3_S64x1024x1024x3_0_1_2_3 : S64x1x1024x3.BroadcastsInDim S64x1024x1024x3 (![0, 1, 2, 3] : Fin 4 → Fin S64x1024x1024x3.rank)
  reducesTo_S64x1024x1024x3_S64x1024x1024_d3 : S64x1024x1024x3.ReducesTo [3] S64x1024x1024
  h_S_ : 0 < S_.numel
  bcast_S_S64x1024x1024 : S_.BroadcastsInDim S64x1024x1024 (![] : Fin 0 → Fin S64x1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  reducesTo_S64x1024x1024_S_d0_1_2 : S64x1024x1024.ReducesTo [0, 1, 2] S_

variable [Facts₀]

class Facts : Prop extends Facts₀ where

variable [Facts]
-- ==== Proof.CaseValues.lean ====
/-
  What one grid point leaves in the accumulator.

  The output block is a single number kept in fast memory across all 512 grid points. At the very first
  point the body stores zero, reads it back, and stores "zero plus this tile's sum"; at every other point
  it reads what the previous point left and stores "that plus this tile's sum". Both are the same pure
  function `step` of the two input blocks, the tile number and the value read: only the value read differs.
  The statements hold for any float model.
-/
import proofs.«144549_j63127429317292_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Collapse.Kernel

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- The accumulator after one point: the value read plus the sum of the tile's penalties, as the body
    computes it from the row block `x0`, the column block `x1` and the tile number `u`. -/
def step (u : Nat) (x0 : Vec F S1x128x3 .f32) (x1 : Vec F S1x3x1024 .f32) (acc : Vec F S1x1 .f32) : Vec F S1x1 .f32 :=
  k0_pay1 (k0_pay3 x0 x1) (Scalar.muli (BitVec.ofNat 32 u) 128#32)
    (iota .tc S128x1024 32 [0] Facts₀.iota_S128x1024_d0_w32) acc

/-- The block of zeros the first point stores. -/
abbrev zeros : Vec F S1x1 .f32 := k0_pay2 (F := F)

/-- Every point but the first: the previous contents, stepped. -/
theorem out_later (c : Dev nD) (i : grid0.Coords) (a2 : Memref sig .tc .vmem S1x128x3 .f32) (h2 : a2.IsWhole)
    (a3 : Memref sig .tc .vmem S1x3x1024 .f32) (h3 : a3.IsWhole) (a4 : Memref sig .tc .vmem S1x1 .f32) (h4 : a4.IsWhole)
    (hc : ¬cond0_0 i) (x0 : Vec F S1x128x3 .f32) (x1 : Vec F S1x3x1024 .f32) (xo : Vec F S1x1 .f32) :
    out0_B_2 c i a2 h2 a3 h3 a4 h4 hc x0 x1 xo = step (i 1).val x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero off2]
  simp only [View.readAt_eq_ld, h2.read_unread, h3.read_unread, h4.read_unread,
    View.ld_unit_zero (S := S1x128x3) off3, View.ld_unit_zero (S := S1x3x1024) off3, View.ld_unit_zero (S := S1x1) off2]
  rfl

/-- The first point: zero, stepped. -/
theorem out_first (c : Dev nD) (i : grid0.Coords) (a2 : Memref sig .tc .vmem S1x128x3 .f32) (h2 : a2.IsWhole)
    (a3 : Memref sig .tc .vmem S1x3x1024 .f32) (h3 : a3.IsWhole) (a4 : Memref sig .tc .vmem S1x1 .f32) (h4 : a4.IsWhole)
    (hc : cond0_0 i) (x0 : Vec F S1x128x3 .f32) (x1 : Vec F S1x3x1024 .f32) :
    out0_A_2 c i a2 h2 a3 h3 a4 h4 hc x0 x1 = step (i 1).val x0 x1 zeros := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1) off2, View.readCov_unit_zero (S := S1x1) _ off2]
  simp only [View.readAt_eq_ld, h2.read_unread, h3.read_unread,
    View.ld_unit_zero (S := S1x128x3) off3, View.ld_unit_zero (S := S1x3x1024) off3]
  rfl

end Cert.Collapse.Kernel

end
-- ==== Proof.Spec.lean ====
/-
  The loss as one function of the argument array, over the extended reals.

  The argument is 64 configurations of 1024 points in space, stored as 64 rows of 3072 numbers: point `n`
  of configuration `b` has its coordinate `k` at column `3 n + k`. For an ordered pair of points `(i, j)` of one
  configuration the penalty is `(max (τ − √(|pᵢ − pⱼ|² + ε), 0) · [i < j])²`, where `τ`, `ε` are the values of
  two fixed words and `[i < j]` is the indicator of the strict upper triangle. The loss is the sum of the
  penalties over all configurations and all ordered pairs, times the value of the word for one, divided by
  the value of the word for sixty-four.

  Both programs compute this number; they differ in how they group the sum (here: by configuration, by
  tile of 128 rows, by row, by column).
-/
import Idealize.ShloMosaic.Lib.ValueIdx
import Idealize.ShloMosaic.PureOps.Ideal.Laws

noncomputable section

open scoped BigOperators

namespace Cert.Collapse

open Idealize.ShloMosaic Idealize.ShloMosaic.ValueIdx

/-- The argument's shape: 64 rows of 3072. -/
abbrev SArg : Shape := ⟨2, ![64, 3072]⟩

/-- The threshold distance (the word of 2.9). -/
abbrev thr : EReal := Ideal.ofBits .f32 0x4039999A#32
/-- The regularizer under the square root (the word of 1e-8). -/
abbrev eps : EReal := Ideal.ofBits .f32 0x322BCC77#32
/-- The zero word's value. -/
abbrev zer : EReal := Ideal.ofBits .f32 0x00000000#32
/-- The weight (the word of 1.0). -/
abbrev wgt : EReal := Ideal.ofBits .f32 0x3F800000#32
/-- The number of configurations (the word of 64.0). -/
abbrev cnt : EReal := Ideal.ofBits .f32 0x42800000#32

/-- Column of coordinate `k` of point `n`. -/
abbrev col (n : Fin 1024) (k : Fin 3) : Fin 3072 :=
  ⟨n.val * 3 + k.val, by have := n.isLt; have := k.isLt; omega⟩

/-- Coordinate `k` of point `n` of configuration `b`. -/
def atom (X : SArg.Idx → EReal) (b : Fin 64) (n : Fin 1024) (k : Fin 3) : EReal := X (ix2 b (col n k))

/-- The indicator of the strict upper triangle. -/
def upper (i j : Nat) : EReal := if i < j then 1 else 0

/-- The squared distance of points `i` and `j` of configuration `b`. -/
def sqDist (X : SArg.Idx → EReal) (b : Fin 64) (i j : Fin 1024) : EReal :=
  (atom X b i 0 - atom X b j 0) * (atom X b i 0 - atom X b j 0)
    + (atom X b i 1 - atom X b j 1) * (atom X b i 1 - atom X b j 1)
    + (atom X b i 2 - atom X b j 2) * (atom X b i 2 - atom X b j 2)

/-- How far the pair violates the threshold, zero outside the strict upper triangle. -/
def viol (X : SArg.Idx → EReal) (b : Fin 64) (i j : Fin 1024) : EReal :=
  max (thr - Ideal.sqrt (sqDist X b i j + eps)) zer * upper i.val j.val

/-- The penalty of the ordered pair `(i, j)` in configuration `b`. -/
def pen (X : SArg.Idx → EReal) (b : Fin 64) (i j : Fin 1024) : EReal := viol X b i j * viol X b i j

/-- Row `r` of tile `u`. -/
abbrev rowOf (u : Fin 8) (r : Fin 128) : Fin 1024 :=
  ⟨u.val * 128 + r.val, by have := u.isLt; have := r.isLt; omega⟩

/-- The penalties of the 128 rows of tile `u` against all 1024 columns, in configuration `b`. -/
def tileSum (X : SArg.Idx → EReal) (b : Fin 64) (u : Fin 8) : EReal :=
  ∑ r : Fin 128, ∑ c : Fin 1024, pen X b (rowOf u r) c

/-- The tile visited `s`-th in the order (configuration, tile): configuration `s / 8`, tile `s % 8`. -/
def tileAt (X : SArg.Idx → EReal) (s : Nat) : EReal :=
  if h : s < 512 then tileSum X ⟨s / 8, by omega⟩ ⟨s % 8, by omega⟩ else 0

/-- All penalties. -/
def total (X : SArg.Idx → EReal) : EReal := ∑ b : Fin 64, ∑ i : Fin 1024, ∑ j : Fin 1024, pen X b i j

/-- The loss. -/
def loss (X : SArg.Idx → EReal) : EReal := Ideal.div (wgt * (zer + total X)) cnt

end Cert.Collapse

end
-- ==== Proof.TileDist.lean ====
/-
  One entry of a tile's distance matrix.

  The body turns the row block (128 points × 3 coordinates) into three columns and the column block
  (3 coordinates × 1024 points) into three rows, spreads each over the 128 × 1024 tile, and computes
  `√((Δx)² + (Δy)² + (Δz)² + ε)` entrywise. Read at entry `(r, c)` this is the regularized distance of the
  tile's row point `r` and column point `c`. Also: the two reshapes of a vector to a one-column matrix and
  a one-column matrix spread over many columns, read at an index.
-/
import proofs.«144549_j63127429317292_1_alg».proof.Proof.Gen.KernelIdeal.Skeleton
import proofs.«144549_j63127429317292_1_alg».proof.Proof.Spec
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Collapse.Kernel

open Cert.KernelIdeal Cert.KernelIdeal.Gen

/-- A vector viewed as a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix spread over `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The entrywise square root of a vector of extended reals. -/
theorem sqrt_apply {s : Shape} {φ : FTy} (a : FVec Ideal s φ) (i : s.Idx) : sqrt a i = Ideal.sqrt (a i) := rfl

/-- Coordinate `k` of the row block, spread over the tile, at entry `(r, c)`: the row point `r`'s coordinate. -/
theorem rowSpread_apply (x0 : FVec Ideal S1x128x3 .f32) (o : ℕ) (k : Fin 3) (ho : k.val = o) (hc : S1x128x3.ShapeCasts S128x3)
    (hs : S128x3.Slices ![0, o] S128x1) (hb : S128x1.Broadcasts S128x1024) (r : Fin 128) (c : Fin 1024) :
    broadcastTo S128x1024 (extractStridedSlice S128x1 ![0, o] (shapeCast S128x3 x0 hc) hs) hb (ix2 r c)
      = x0 (ix3 (0 : Fin 1) r k) := by
  refine (broadcastTo_a1_ab_apply _ _ r c).trans ?_
  refine (slice2_axis1_apply o _ hs r (0 : Fin 1) k ho).trans ?_
  exact shapeCast_1ab_ab_apply x0 _ r k

/-- Coordinate `k` of the column block, spread over the tile, at entry `(r, c)`: the column point `c`'s coordinate. -/
theorem colSpread_apply (x1 : FVec Ideal S1x3x1024 .f32) (o : ℕ) (k : Fin 3) (ho : k.val = o) (hc : S1x3x1024.ShapeCasts S3x1024)
    (hs : S3x1024.Slices ![o, 0] S1x1024) (hb : S1x1024.Broadcasts S128x1024) (r : Fin 128) (c : Fin 1024) :
    broadcastTo S128x1024 (extractStridedSlice S1x1024 ![o, 0] (shapeCast S3x1024 x1 hc) hs) hb (ix2 r c)
      = x1 (ix3 (0 : Fin 1) k c) := by
  refine (broadcastTo_1b_ab_apply _ _ r c).trans ?_
  refine (slice2_axis0_apply o _ hs (0 : Fin 1) c k ho).trans ?_
  exact shapeCast_1ab_ab_apply x1 _ k c

/-- The regularized distance of the tile's row point `r` and column point `c`, from the two blocks. -/
def dist (x0 : FVec Ideal S1x128x3 .f32) (x1 : FVec Ideal S1x3x1024 .f32) (r : Fin 128) (c : Fin 1024) : EReal :=
  Ideal.sqrt
    ((x0 (ix3 (0 : Fin 1) r 0) - x1 (ix3 (0 : Fin 1) 0 c)) * (x0 (ix3 (0 : Fin 1) r 0) - x1 (ix3 (0 : Fin 1) 0 c))
      + (x0 (ix3 (0 : Fin 1) r 1) - x1 (ix3 (0 : Fin 1) 1 c)) * (x0 (ix3 (0 : Fin 1) r 1) - x1 (ix3 (0 : Fin 1) 1 c))
      + (x0 (ix3 (0 : Fin 1) r 2) - x1 (ix3 (0 : Fin 1) 2 c)) * (x0 (ix3 (0 : Fin 1) r 2) - x1 (ix3 (0 : Fin 1) 2 c))
      + Collapse.eps)

/-- The body's distance matrix at entry `(r, c)`. -/
theorem dist_apply (x0 : FVec Ideal S1x128x3 .f32) (x1 : FVec Ideal S1x3x1024 .f32) (r : Fin 128) (c : Fin 1024) :
    k0_pay3 (F := Ideal) x0 x1 (ix2 r c) = dist x0 x1 r c := by
  unfold k0_pay3
  simp only [shapeCast_shapeCast]
  simp only [sqrt_apply, addf_apply, mulf_apply, subf_apply, broadcast_apply]
  rw [rowSpread_apply x0 0 0 rfl, rowSpread_apply x0 1 1 rfl, rowSpread_apply x0 2 2 rfl,
    colSpread_apply x1 0 0 rfl, colSpread_apply x1 1 1 rfl, colSpread_apply x1 2 2 rfl]
  rfl

end Cert.Collapse.Kernel

end
-- ==== Proof.TileSum.lean ====
/-
  One step of the accumulator, read at its single entry.

  The body squares the masked violation at each of the 128 × 1024 entries of the tile, sums each row over
  the 1024 columns, sums the 128 row sums, and adds the result to the value it read. Over the extended reals
  the two lane sums are finite sums, so the step is `acc + ∑ r, ∑ c, cell r c`.
-/
import proofs.«144549_j63127429317292_1_alg».proof.Proof.CaseValues
import proofs.«144549_j63127429317292_1_alg».proof.Proof.TileDist
import Idealize.ShloMosaic.PureOps.Ideal.Laws

noncomputable section

open scoped BigOperators
open Idealize.ShloMosaic Idealize.ShloMosaic.ValueIdx

namespace Cert.Collapse.Kernel

open Cert.KernelIdeal Cert.KernelIdeal.Gen

/-- The word the body converts to the mask at entry `(r, c)` of tile `u`: the one-bit answer to
    "row number `128 u + r` is below column number `c`", widened to 32 bits. -/
def maskWord (u : ℕ) (r : Fin 128) (c : Fin 1024) : BitVec 32 :=
  (IntOp.cmpi .slt (IntOp.addi (Scalar.muli (BitVec.ofNat 32 u) 128#32) (BitVec.ofNat 32 r.val))
    (BitVec.ofNat 32 c.val)).setWidth 32

/-- The squared masked violation at entry `(r, c)` of tile `u`. -/
def cell (u : ℕ) (x0 : FVec Ideal S1x128x3 .f32) (x1 : FVec Ideal S1x3x1024 .f32) (r : Fin 128) (c : Fin 1024) : EReal :=
  (max (Collapse.thr - dist x0 x1 r c) Collapse.zer * FloatOps.sitofp (F := Ideal) .f32 (maskWord u r c))
    * (max (Collapse.thr - dist x0 x1 r c) Collapse.zer * FloatOps.sitofp (F := Ideal) .f32 (maskWord u r c))

theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl

theorem step_apply (u : ℕ) (x0 : FVec Ideal S1x128x3 .f32) (x1 : FVec Ideal S1x3x1024 .f32) (acc : FVec Ideal S1x1 .f32) :
    step (F := Ideal) u x0 x1 acc (ix2 (0 : Fin 1) (0 : Fin 1))
      = acc (ix2 (0 : Fin 1) (0 : Fin 1)) + ∑ r : Fin 128, ∑ c : Fin 1024, cell u x0 x1 r c := by
  unfold step k0_pay1
  dsimp only
  rw [addf_apply, shapeCast_self]
  refine congrArg (acc (ix2 (0 : Fin 1) (0 : Fin 1)) + ·) ?_
  refine (shapeCast_a_1a_apply _ _ (0 : Fin 1) (0 : Fin 1)).trans ?_
  refine (Ideal.multiReduction_add_single _ _ _ _ _ (ix1 (0 : Fin 1))).trans ?_
  show (∑ r : Fin 128, _) = _
  refine Finset.sum_congr rfl fun r _ => ?_
  have hl0 : ∀ h : S128x1.Reduces [0] S1, h.lift (ix1 (0 : Fin 1)) r = ix2 r (0 : Fin 1) := fun h =>
    funext fun a => Fin.ext (by match a with | ⟨0, _⟩ => rfl | ⟨1, _⟩ => rfl)
  rw [hl0]
  refine (shapeCast_a_a1_apply _ _ r (0 : Fin 1)).trans ?_
  refine (Ideal.multiReduction_add_single _ _ _ _ _ (ix1 r)).trans ?_
  show (∑ c : Fin 1024, _) = _
  refine Finset.sum_congr rfl fun c _ => ?_
  have hl1 : ∀ h : S128x1024.Reduces [1] S128, h.lift (ix1 r) c = ix2 r c := fun h =>
    funext fun a => Fin.ext (by match a with | ⟨0, _⟩ => rfl | ⟨1, _⟩ => rfl)
  rw [hl1]
  have e0 : ∀ h : S128x1024.Iotas .tc 32 [0], iota .tc S128x1024 32 [0] h (ix2 r c) = BitVec.ofNat 32 r.val :=
    fun h => iota_single_apply .tc S128x1024 32 0 h (ix2 r c)
  have e1 : ∀ h : S128x1024.Iotas .tc 32 [1], iota .tc S128x1024 32 [1] h (ix2 r c) = BitVec.ofNat 32 c.val :=
    fun h => iota_single_apply .tc S128x1024 32 1 h (ix2 r c)
  simp only [mulf_apply, maximumf_apply, subf_apply, broadcast_apply, sitofp_apply, extui_apply, cmpi_apply,
    addi_apply, dist_apply, e0, e1]
  rfl

end Cert.Collapse.Kernel

end
-- ==== Proof.SumLaws.lean ====
/-
  Regrouping finite sums in a commutative additive monoid.

  * A sum over a rank-3 index set is the triple sum over its coordinates.
  * A sum over `B * T` consecutive naturals, the `s`-th term depending on `s` only through the pair
    `(s / T, s % T)`, is the double sum over that pair.
  * A sum over `T * R` rows is the double sum over (tile, row inside the tile).

  None of these needs more than commutativity and associativity of the addition, so they hold on the
  extended reals with no finiteness assumption.
-/
import Idealize.ShloMosaic.Lib.ValueIdx
import Mathlib.Algebra.BigOperators.Fin
import Mathlib.Logic.Equiv.Fin.Basic

open scoped BigOperators

namespace Cert.SumLaws

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- `B * T` consecutive terms, each a function of `(s / T, s % T)`, summed as a double sum. -/
theorem sum_range_pairs {M : Type*} [AddCommMonoid M] (B T : Nat) (f : Fin B → Fin T → M) (g : Nat → M)
    (hg : ∀ (b : Fin B) (u : Fin T), g (u.val + T * b.val) = f b u) :
    ∑ s ∈ Finset.range (B * T), g s = ∑ b : Fin B, ∑ u : Fin T, f b u := by
  rw [← Fin.sum_univ_eq_sum_range, ← Fintype.sum_prod_type' (f := f)]
  refine (Fintype.sum_equiv finProdFinEquiv _ _ fun p => ?_).symm
  rw [finProdFinEquiv_apply_val]
  exact (hg p.1 p.2).symm

/-- `T * R` rows summed tile by tile. -/
theorem sum_rows_tiles {M : Type*} [AddCommMonoid M] (T R : Nat) (h : Fin (T * R) → M) (k : Fin T → Fin R → M)
    (hk : ∀ (u : Fin T) (r : Fin R) (i : Fin (T * R)), i.val = r.val + R * u.val → h i = k u r) :
    ∑ i : Fin (T * R), h i = ∑ u : Fin T, ∑ r : Fin R, k u r := by
  rw [← Fintype.sum_prod_type' (f := k)]
  refine (Fintype.sum_equiv finProdFinEquiv _ _ fun p => ?_).symm
  exact (hk p.1 p.2 _ (finProdFinEquiv_apply_val p)).symm

end Cert.SumLaws
-- ==== Proof.Regroup.lean ====
/-
  Regrouping the total of the penalties, and the tile-local indicator.

  * The 512 tile sums, visited in the order (configuration, tile), add up to the total of all penalties:
    512 consecutive terms indexed by (s / 8, s % 8) are a double sum over 64 configurations and 8 tiles, and
    the 8 tiles of 128 rows of one configuration are its 1024 rows. Only commutativity and associativity of the
    addition are used.
  * Row r of tile u has number 128 u + r, which is below 1024, so the 32-bit arithmetic that forms it does
    not wrap; the signed comparison of it with a column number, widened to 32 bits and read as a number, is the
    indicator of the strict upper triangle.
-/
import proofs.«144549_j63127429317292_1_alg».proof.Proof.Spec
import proofs.«144549_j63127429317292_1_alg».proof.Proof.SumLaws
import Idealize.ShloMosaic.Lib.ValueIdx
import Idealize.ShloMosaic.Lib.Affine
import Idealize.ShloMosaic.PureOps.Ideal.Laws

noncomputable section

open scoped BigOperators

namespace Cert.Collapse

open Idealize.ShloMosaic Idealize.ShloMosaic.ValueIdx

/-- The term visited at position u + 8 b is the sum of tile u of configuration b. -/
theorem tileAt_pair (X : SArg.Idx → EReal) (b : Fin 64) (u : Fin 8) :
    tileAt X (u.val + 8 * b.val) = tileSum X b u := by
  have hb := b.isLt; have hu := u.isLt
  unfold tileAt
  rw [dif_pos (by omega)]
  exact congrArg₂ (tileSum X)
    (Fin.ext (by show (u.val + 8 * b.val) / 8 = b.val; omega))
    (Fin.ext (by show (u.val + 8 * b.val) % 8 = u.val; omega))

/-- The 8 tile sums of one configuration are the sum over its 1024 rows. -/
theorem tiles_rows (X : SArg.Idx → EReal) (b : Fin 64) :
    ∑ u : Fin 8, tileSum X b u = ∑ i : Fin 1024, ∑ j : Fin 1024, pen X b i j := by
  have h := Cert.SumLaws.sum_rows_tiles 8 128
    (fun i : Fin (8 * 128) => ∑ j : Fin 1024, pen X b i j)
    (fun u r => ∑ c : Fin 1024, pen X b (rowOf u r) c)
    (fun u r i hi => by
      have e : i = rowOf u r := Fin.ext (by show i.val = u.val * 128 + r.val; omega)
      rw [e])
  exact h.symm

/-- The 512 tile sums add up to the total of all penalties. -/
theorem tiles_total (X : SArg.Idx → EReal) : ∑ s ∈ Finset.range 512, tileAt X s = total X := by
  have h := Cert.SumLaws.sum_range_pairs 64 8 (fun b u => tileSum X b u) (tileAt X) (tileAt_pair X)
  refine Eq.trans (show ∑ s ∈ Finset.range 512, tileAt X s = ∑ b : Fin 64, ∑ u : Fin 8, tileSum X b u from h) ?_
  unfold total
  exact Finset.sum_congr rfl (fun b _ => tiles_rows X b)

/-- A 32-bit word of a number below 1024 reads, signed, as that number. -/
theorem toInt_word_small (n : Nat) (h : n < 1024) : (BitVec.ofNat 32 n).toInt = (n : Int) := by
  rw [BitVec.toInt_ofNat']
  exact Int.bmod_eq_of_le (by omega) (by omega)

/-- The row number formed in 32-bit arithmetic is the word of 128 u + r. -/
theorem rowWord_eq (u r : Nat) :
    IntOp.addi (Scalar.muli (BitVec.ofNat 32 u) 128#32) (BitVec.ofNat 32 r) = BitVec.ofNat 32 (u * 128 + r) := by
  show BitVec.ofNat 32 u * BitVec.ofNat 32 128 + BitVec.ofNat 32 r = BitVec.ofNat 32 (u * 128 + r)
  rw [BitVec.ofNat_add, BitVec.ofNat_mul]

/-- The tile-local comparison of row and column numbers, widened and read as a number, is the indicator of the
    strict upper triangle. -/
theorem tileMask_eq (u : Nat) (hu : u < 8) (r : Fin 128) (c : Fin 1024) :
    FloatOps.sitofp (F := Ideal) .f32
        ((IntOp.cmpi .slt (IntOp.addi (Scalar.muli (BitVec.ofNat 32 u) 128#32) (BitVec.ofNat 32 r.val))
          (BitVec.ofNat 32 c.val)).setWidth 32)
      = upper (u * 128 + r.val) c.val := by
  have hr := r.isLt; have hc := c.isLt
  have hrow : u * 128 + r.val < 1024 := by omega
  rw [rowWord_eq]
  by_cases h : IntOp.cmpi .slt (BitVec.ofNat 32 (u * 128 + r.val)) (BitVec.ofNat 32 c.val) = 1#1
  · have hlt : u * 128 + r.val < c.val := by
      have := IntOp.cmpi_slt.mp h
      rw [toInt_word_small _ hrow, toInt_word_small _ hc] at this
      exact_mod_cast this
    rw [h, upper, if_pos hlt]
    show ((((1#1 : BitVec 1).setWidth 32).toInt : ℝ) : EReal) = 1
    have e : ((1#1 : BitVec 1).setWidth 32).toInt = 1 := by decide
    rw [e]
    norm_num
  · have hge : ¬ u * 128 + r.val < c.val := by
      intro hlt
      apply h
      rw [IntOp.cmpi_slt, toInt_word_small _ hrow, toInt_word_small _ hc]
      exact_mod_cast hlt
    rw [eq_zero_of_ne_one h, upper, if_neg hge]
    show ((((0#1 : BitVec 1).setWidth 32).toInt : ℝ) : EReal) = 0
    have e : ((0#1 : BitVec 1).setWidth 32).toInt = 0 := by decide
    rw [e]
    norm_num

end Cert.Collapse

end
-- ==== Proof.TileValue.lean ====
/-
  A tile's step in terms of the argument array.

  If the row block holds the coordinates of the 128 points of tile `u` of configuration `b`, and the column
  block the coordinates of all 1024 points of that configuration, then each entry of the tile is the
  specification's penalty of (row point, column point) — the mask word converts to the strict-upper-triangle
  indicator of the two point numbers — and the step adds the tile's sum to the accumulator.
-/
import proofs.«144549_j63127429317292_1_alg».proof.Proof.TileSum
import proofs.«144549_j63127429317292_1_alg».proof.Proof.Regroup

noncomputable section

open scoped BigOperators
open Idealize.ShloMosaic Idealize.ShloMosaic.ValueIdx

namespace Cert.Collapse.Kernel

open Cert.KernelIdeal Cert.KernelIdeal.Gen

/-- An entry of the tile is the penalty of its pair of points. -/
theorem cell_eq_pen (X : SArg.Idx → EReal) (b : Fin 64) (u : Fin 8)
    (x0 : FVec Ideal S1x128x3 .f32) (x1 : FVec Ideal S1x3x1024 .f32)
    (hx0 : ∀ (r : Fin 128) (k : Fin 3), x0 (ix3 (0 : Fin 1) r k) = atom X b (rowOf u r) k)
    (hx1 : ∀ (k : Fin 3) (j : Fin 1024), x1 (ix3 (0 : Fin 1) k j) = atom X b j k)
    (r : Fin 128) (c : Fin 1024) : cell u.val x0 x1 r c = pen X b (rowOf u r) c := by
  unfold cell maskWord dist
  rw [tileMask_eq u.val u.isLt r c, hx0 r 0, hx0 r 1, hx0 r 2, hx1 0 c, hx1 1 c, hx1 2 c]
  rfl

/-- The step adds the tile's sum. -/
theorem step_tile (X : SArg.Idx → EReal) (b : Fin 64) (u : Fin 8)
    (x0 : FVec Ideal S1x128x3 .f32) (x1 : FVec Ideal S1x3x1024 .f32)
    (hx0 : ∀ (r : Fin 128) (k : Fin 3), x0 (ix3 (0 : Fin 1) r k) = atom X b (rowOf u r) k)
    (hx1 : ∀ (k : Fin 3) (j : Fin 1024), x1 (ix3 (0 : Fin 1) k j) = atom X b j k)
    (acc : FVec Ideal S1x1 .f32) :
    step (F := Ideal) u.val x0 x1 acc (ix2 (0 : Fin 1) (0 : Fin 1))
      = acc (ix2 (0 : Fin 1) (0 : Fin 1)) + tileSum X b u := by
  rw [step_apply]
  unfold tileSum
  exact congrArg (acc (ix2 (0 : Fin 1) (0 : Fin 1)) + ·)
    (Finset.sum_congr rfl fun r _ => Finset.sum_congr rfl fun c _ => cell_eq_pen X b u x0 x1 hx0 hx1 r c)

end Cert.Collapse.Kernel

end
-- ==== Proof.Blocks.lean ====
/-
  What the two input blocks of a grid point hold.

  Before the grid runs, the argument (64 rows of 3072) is reshaped to 64 × 1024 × 3 (configuration, point,
  coordinate) and that array is transposed in its last two axes to 64 × 3 × 1024. Grid point t = 8 b + u reads

  * from the first array the block of shape 1 × 128 × 3 at block index (b, u, 0): rows 128 u … 128 u + 127 of
    configuration b, so its element (0, r, k) is coordinate k of point 128 u + r of configuration b;
  * from the second array the block of shape 1 × 3 × 1024 at block index (b, 0, 0): all of configuration b,
    so its element (0, k, j) is coordinate k of point j of configuration b.

  The block indices as functions of t are decided once over the 512 grid points; an element of a block is the
  array at block index × block size + the coordinate inside the block, on each axis; the reshape keeps the
  row-major position, b · 3072 + (n · 3 + k) = (b · 1024 + n) · 3 + k.
-/
import proofs.«144549_j63127429317292_1_alg».proof.Proof.Gen.KernelIdeal.Frame
import proofs.«144549_j63127429317292_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.Collapse.Kernel

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD) (t : Fin cfg0.N)

/-- The first array the grid reads is the reshape of the argument, for any proof of the shapes' relation. -/
theorem V_rows_of (h : S64x3072.ShapeCasts S64x1024x3) :
    (V m c main_v0 : S64x1024x3.Idx → EReal) = shapeCast S64x1024x3 (m ((c.tc : Thread nD τ).loc main_arg0)) h := by
  show StableHlo.after hostOps0 (fun b => m (c, b)) (Proc.devRef .tc main_v0) = _
  after_results
  rfl

/-- The second array the grid reads is the transpose of that reshape, for any proofs of the shapes' relations. -/
theorem V_cols_of (h : S64x3072.ShapeCasts S64x1024x3) (h' : S64x1024x3.Transposes [0, 2, 1] S64x3x1024) :
    (V m c main_v1 : S64x3x1024.Idx → EReal)
      = transpose S64x3x1024 [0, 2, 1] (shapeCast S64x1024x3 (m ((c.tc : Thread nD τ).loc main_arg0)) h) h' := by
  show StableHlo.after hostOps0 (fun b => m (c, b)) (Proc.devRef .tc main_v1) = _
  after_results
  rfl

/-- The first window's block index at grid point t is (t / 8, t % 8, 0). -/
theorem idx_rows : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The second window's block index at grid point t is (t / 8, 0, 0). -/
theorem idx_cols : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- The first array the grid reads is the reshape of the argument. -/
theorem V_rows :
    (V m c main_v0 : S64x1024x3.Idx → EReal)
      = shapeCast S64x1024x3 (m ((c.tc : Thread nD τ).loc main_arg0)) Facts₀.shapeCasts_S64x3072_S64x1024x3 :=
  V_rows_of m c _

/-- The second array the grid reads is the transpose, in the last two axes, of the reshape of the argument. -/
theorem V_cols :
    (V m c main_v1 : S64x3x1024.Idx → EReal)
      = transpose S64x3x1024 [0, 2, 1]
          (shapeCast S64x1024x3 (m ((c.tc : Thread nD τ).loc main_arg0)) Facts₀.shapeCasts_S64x3072_S64x1024x3)
          Facts₀.transposes_S64x1024x3_S64x3x1024_0_2_1 :=
  V_cols_of m c _ _

/-- Element (0, r, k) of the row block at grid point t is coordinate k of point 128 (t % 8) + r of
    configuration t / 8. -/
theorem rowBlock_apply (r : Fin 128) (k : Fin 3) (hb : t.val / 8 < 64) (hu : t.val % 8 < 8) :
    (iblk m c 0 t : Vec Ideal S1x128x3 .f32) (ix3 (0 : Fin 1) r k)
      = atom (m ((c.tc : Thread nD τ).loc main_arg0)) ⟨t.val / 8, hb⟩ (rowOf ⟨t.val % 8, hu⟩ r) k := by
  obtain ⟨h0, h1, h2⟩ := idx_rows t
  have e : ((cfg0.win 0).blk t).view.emb (ix3 (0 : Fin 1) r k)
      = ix3 (⟨t.val / 8, hb⟩ : Fin 64) (rowOf ⟨t.val % 8, hu⟩ r) k := by
    funext a
    apply Fin.ext
    match a with
    | ⟨0, _⟩ => show win0_0.index t 0 * 1 + 1 * 0 = t.val / 8; rw [h0]; omega
    | ⟨1, _⟩ => show win0_0.index t 1 * 128 + 1 * r.val = t.val % 8 * 128 + r.val; rw [h1]; omega
    | ⟨2, _⟩ => show win0_0.index t 2 * 3 + 1 * k.val = k.val; rw [h2]; omega
  unfold iblk
  rw [View.read_apply]
  show V m c main_v0 (((cfg0.win 0).blk t).view.emb (ix3 (0 : Fin 1) r k)) = _
  rw [e, V_rows_of m c shapeCasts_S64x3072_S64x1024x3]
  unfold atom
  refine shapeCast_apply _ _ _ (ix2 (⟨t.val / 8, hb⟩ : Fin 64) (col (rowOf ⟨t.val % 8, hu⟩ r) k)) ?_
  rw [Shape.rowMajor_val_two, Shape.rowMajor_val_three]
  show (t.val / 8) * 3072 + ((t.val % 8 * 128 + r.val) * 3 + k.val)
      = ((t.val / 8) * 1024 + (t.val % 8 * 128 + r.val)) * 3 + k.val
  omega

/-- Element (0, k, j) of the column block at grid point t is coordinate k of point j of configuration t / 8. -/
theorem colBlock_apply (k : Fin 3) (j : Fin 1024) (hb : t.val / 8 < 64) :
    (iblk m c 1 t : Vec Ideal S1x3x1024 .f32) (ix3 (0 : Fin 1) k j)
      = atom (m ((c.tc : Thread nD τ).loc main_arg0)) ⟨t.val / 8, hb⟩ j k := by
  obtain ⟨h0, h1, h2⟩ := idx_cols t
  have e : ((cfg0.win 1).blk t).view.emb (ix3 (0 : Fin 1) k j) = ix3 (⟨t.val / 8, hb⟩ : Fin 64) k j := by
    funext a
    apply Fin.ext
    match a with
    | ⟨0, _⟩ => show win0_1.index t 0 * 1 + 1 * 0 = t.val / 8; rw [h0]; omega
    | ⟨1, _⟩ => show win0_1.index t 1 * 3 + 1 * k.val = k.val; rw [h1]; omega
    | ⟨2, _⟩ => show win0_1.index t 2 * 1024 + 1 * j.val = j.val; rw [h2]; omega
  unfold iblk
  rw [View.read_apply]
  show V m c main_v1 (((cfg0.win 1).blk t).view.emb (ix3 (0 : Fin 1) k j)) = _
  rw [e, V_cols_of m c shapeCasts_S64x3072_S64x1024x3 transposes_S64x1024x3_S64x3x1024_0_2_1,
    transpose_ix3_021_apply]
  unfold atom
  refine shapeCast_apply _ _ _ (ix2 (⟨t.val / 8, hb⟩ : Fin 64) (col j k)) ?_
  rw [Shape.rowMajor_val_two, Shape.rowMajor_val_three]
  show (t.val / 8) * 3072 + (j.val * 3 + k.val) = ((t.val / 8) * 1024 + j.val) * 3 + k.val
  omega

end Cert.Collapse.Kernel

end
-- ==== Proof.Accumulated.lean ====
/-
  The accumulator after each grid point.

  The 512 grid points are visited in the order (configuration, tile): point `t` is tile `t % 8` of
  configuration `t / 8`. The first point stores zero plus its tile's sum; every later point adds its
  tile's sum to what the point before left. By induction on the point, after point `n` the accumulator
  holds zero plus the sum of the tiles visited so far.
-/
import proofs.«144549_j63127429317292_1_alg».proof.Proof.TileValue
import proofs.«144549_j63127429317292_1_alg».proof.Proof.Blocks

noncomputable section

open scoped BigOperators
open Idealize.ShloMosaic Idealize.ShloMosaic.TcCoe Idealize.SL.Sem Idealize.ShloMosaic.ValueIdx

namespace Cert.Collapse.Kernel

open Cert.KernelIdeal Cert.KernelIdeal.Gen

variable (m : (ℓ : Loc nD τ sig) → Buf (Elt Ideal) ℓ)

/-- The argument array on core `c`. -/
abbrev arg (c : Dev nD) : SArg.Idx → EReal := m ((c.tc : Thread nD τ).loc main_arg0)

/-- The second grid coordinate of point `t` is its tile number. -/
theorem coords_tile : ∀ t : Fin cfg0.N, (grid0.coords t 1).val = t.val % 8 :=
  (by decide +kernel : ∀ t : Fin grid0.N, (grid0.coords t 1).val = t.val % 8)

/-- At point `t` the step adds the sum of the tile visited `t`-th. -/
theorem point_step (c : Dev nD) (t : Fin cfg0.N) (acc : FVec Ideal S1x1 .f32) :
    step (F := Ideal) (grid0.coords t 1).val (iblk m c 0 t) (iblk m c 1 t) acc (ix2 (0 : Fin 1) (0 : Fin 1))
      = acc (ix2 (0 : Fin 1) (0 : Fin 1)) + tileAt (arg m c) t.val := by
  have hN : t.val < 512 := lt_of_lt_of_eq t.isLt N_0
  have hb : t.val / 8 < 64 := by omega
  have hu : t.val % 8 < 8 := by omega
  rw [coords_tile t, show tileAt (arg m c) t.val = tileSum (arg m c) ⟨t.val / 8, hb⟩ ⟨t.val % 8, hu⟩ from dif_pos hN]
  exact step_tile (arg m c) ⟨t.val / 8, hb⟩ ⟨t.val % 8, hu⟩ (iblk m c 0 t) (iblk m c 1 t)
    (fun r k => rowBlock_apply m c t r k hb hu) (fun k j => colBlock_apply m c t k j hb) acc

/-- After point `n` the accumulator holds zero plus the sums of tiles `0 … n`. -/
theorem outsAt_sum (c : Dev nD) : ∀ (n : ℕ) (h : n < cfg0.N),
    outsAt0 m c n h (ix2 (0 : Fin 1) (0 : Fin 1)) = zer + ∑ s ∈ Finset.range (n + 1), tileAt (arg m c) s
  | 0, h =>
    (congrFun ((outsAt0_A m c ⟨0, h⟩ rfl).trans (out_first ..)) (ix2 (0 : Fin 1) (0 : Fin 1))).trans (by
      rw [point_step m c ⟨0, h⟩, Finset.sum_range_one]; rfl)
  | n + 1, h => by
    have hN : cfg0.N = 512 := N_0
    have hB : ¬(⟨n + 1, h⟩ : Fin cfg0.N).val % 512 = 0 := by dsimp only; omega
    refine (congrFun ((outsAt0_B m c ⟨n + 1, h⟩ hB).trans (out_later ..)) (ix2 (0 : Fin 1) (0 : Fin 1))).trans ?_
    rw [point_step m c ⟨n + 1, h⟩]
    show outsAt0 m c n _ (ix2 (0 : Fin 1) (0 : Fin 1)) + _ = _
    rw [outsAt_sum c n, Finset.sum_range_succ _ (n + 1), add_assoc]

end Cert.Collapse.Kernel

end
-- ==== Proof.KernelRun.lean ====
/-
  The idealized kernel's result.

  The accumulator is written back to the 1 × 1 result array once, after the last grid point; by then it
  holds zero plus the sum of all 512 tiles, which is the sum of all penalties. The three host operations
  after the region read that number, multiply it by the weight and divide by the number of configurations:
  the specification's loss.
-/
import proofs.«144549_j63127429317292_1_alg».proof.Proof.Accumulated
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.Collapse.Kernel

open Cert.KernelIdeal Cert.KernelIdeal.Gen

variable (m : (ℓ : Loc nD τ sig) → Buf (Elt Ideal) ℓ) (ρ : Dev nD → PrngReg)

/-- What the result array of the region ends holding: zero plus all penalties. -/
abbrev accTotal (c : Dev nD) : Buf (Elt Ideal) ((c.tc : Thread nD τ).loc main_v2) := fun _ => zer + total (arg m c)

/-- A 1 × 1 array has one index. -/
theorem idx_one (z : S1x1.Idx) : z = ix2 (0 : Fin 1) (0 : Fin 1) := by
  funext a
  apply Fin.ext
  match a with
  | ⟨0, _⟩ => have h : (z 0).val < 1 := (z 0).isLt; show (z 0).val = 0; omega
  | ⟨1, _⟩ => have h : (z 1).val < 1 := (z 1).isLt; show (z 1).val = 0; omega

/-- The last grid point. -/
abbrev lastPoint : Fin cfg0.N := ⟨511, by rw [show cfg0.N = 512 from N_0]; decide⟩

/-- The one write-back, after the last point, writes zero plus all penalties. -/
theorem flushed_eq (c : Dev nD) (t : Fin cfg0.N) (hf : (cfg0.win 2).flush t = true) :
    (dats m 0 c).flushed 2 t = ((cfg0.win 2).blk t).view.read (Elt Ideal) (accTotal m c) := by
  have hN : cfg0.N = 512 := N_0
  have h511 : t.val = 511 := by have := (flush0_2 t).mp hf; have := t.isLt; omega
  show (cfg0.win 2).cut (grid0.coords t) ((dats m 0 c).after 2 t) = _
  rw [after0_2]
  funext y
  show outsAt0 m c t.val t.isLt ((cfg0.win 2).xinj (grid0.coords t) y) = zer + total (arg m c)
  refine (congrArg (outsAt0 m c t.val t.isLt) (idx_one _)).trans ?_
  rw [outsAt_sum m c t.val t.isLt, h511]
  show zer + ∑ s ∈ Finset.range 512, tileAt (arg m c) s = _
  rw [tiles_total]

/-- So the region's result array ends at zero plus all penalties: the last point's block is the whole array. -/
theorem final (c : Dev nD) : (dats m 0 c).arrAt 2 cfg0.N = accTotal m c :=
  (dats m 0 c).arrAt_eq_of_cover 2 (accTotal m c) (flushed_eq m c) fun i =>
    ⟨lastPoint, (flush0_2 lastPoint).mpr rfl, by
      show i ∈ ((View.whole main_v2).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 1 from by decide +kernel]
        omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 1 from by decide +kernel]
        omega⟩

/-- The host operations after the region turn that number into the loss. -/
theorem tail_eq (c : Dev nD) :
    Pipeline.afterTail₀ cfgs (dats m) 0 (V0 m) [hostOps1] c main_v5 = fun _ => loss (arg m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v2) = accTotal m c :=
    (Pipeline.withArrays_arr spec0 launch0.win.arr_inj c _ _ 2).trans (final m c)
  rw [hw]
  rfl

/-- Every weakly fair execution of the idealized kernel's program terminates with its result at the loss of
    the argument, and the argument unchanged. -/
theorem run : θ_run defs (onTc (τ := τ) (main (F := Ideal))) ⟨m, fun _ => 0, ρ⟩ fun r => ∀ c : Dev nD,
      r.2.mem ((c.tc : Thread nD τ).loc main_v5) = (fun _ => loss (arg m c))
      ∧ r.2.mem ((c.tc : Thread nD τ).loc main_arg0) = m ((c.tc : Thread nD τ).loc main_arg0) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c)⟩)
    (run_main m ρ)

end Cert.Collapse.Kernel

end
-- ==== Proof.RefLoss.lean ====
/-
  The reference program computes the loss.

  Read one element at a time, the reference forms, for configuration b and the ordered pair (i, j) of points,
  the three coordinate differences, the sum of their squares starting from the zero word, adds the regularizer,
  takes the square root, subtracts it from the threshold, clamps at the zero word, multiplies by the indicator
  of i < j (a signed comparison of two 32-bit counters, converted to a number) and squares. It then sums
  all of these starting from the zero word, multiplies by the weight and divides by the count.
-/
import proofs.«144549_j63127429317292_1_alg».proof.Proof.Gen.ReferenceIdeal.Read
import proofs.«144549_j63127429317292_1_alg».proof.Proof.Spec
import proofs.«144549_j63127429317292_1_alg».proof.Proof.SumLaws
import Idealize.ShloMosaic.Lib.ValueIdx
import Idealize.ShloMosaic.Lib.Affine
import Idealize.ShloMosaic.PureOps.Ideal.Laws

noncomputable section

open scoped BigOperators

namespace Cert.Collapse.Ref

open Cert.ReferenceIdeal Cert.ReferenceIdeal.Read Cert.Collapse
open Idealize.ShloMosaic Idealize.ShloMosaic.ValueIdx

/-- A 32-bit counter below 1024 reads, signed, as itself. -/
theorem toInt_counter (n : Nat) (h : n < 1024) : (BitVec.ofNat 32 n).toInt = (n : Int) := by
  rw [BitVec.toInt_ofNat']
  exact Int.bmod_eq_of_le (by omega) (by omega)

/-- The signed comparison of two counters below 1024, converted to a number, is the indicator of the strict
    upper triangle. -/
theorem mask_eq (i j : Fin 1024) :
    FloatOps.uitofp (F := Ideal) .f32 (IntOp.cmpi .slt (BitVec.ofNat 32 i.val) (BitVec.ofNat 32 j.val))
      = upper i.val j.val := by
  by_cases h : IntOp.cmpi .slt (BitVec.ofNat 32 i.val) (BitVec.ofNat 32 j.val) = 1#1
  · have hlt : i.val < j.val := by
      have := IntOp.cmpi_slt.mp h
      rw [toInt_counter _ i.isLt, toInt_counter _ j.isLt] at this
      exact_mod_cast this
    rw [h, upper, if_pos hlt]
    show (((1#1 : BitVec 1).toNat : ℝ) : EReal) = 1
    norm_num
  · have hge : ¬ i.val < j.val := by
      intro hlt
      apply h
      rw [IntOp.cmpi_slt, toInt_counter _ i.isLt, toInt_counter _ j.isLt]
      exact_mod_cast hlt
    rw [eq_zero_of_ne_one h, upper, if_neg hge]
    show (((0#1 : BitVec 1).toNat : ℝ) : EReal) = 0
    norm_num

/-- Coordinate k of the first point of the pair, as the reference reads it. -/
theorem read_fst (X : SArg.Idx → EReal) (b : Fin 64) (i j : Fin 1024) (k : Fin 3) :
    val_main_v3 (F := Ideal) X (idx_main_v7 (ix3 b i j) k) = atom X b i k := by
  rw [val_main_v3_apply, val_main_v1_apply, val_main_v0_apply]
  unfold atom
  refine congrArg X (funext fun a => ?_)
  have hb := b.isLt; have hi := i.isLt; have hk := k.isLt
  match a with
  | ⟨0, _⟩ =>
    refine Fin.ext ?_
    show ((b.val * 1024 + i.val) * 3 + k.val) / 3072 = b.val
    omega
  | ⟨1, _⟩ =>
    refine Fin.ext ?_
    show ((b.val * 1024 + i.val) * 3 + k.val) % 3072 = i.val * 3 + k.val
    omega

/-- Coordinate k of the second point of the pair, as the reference reads it. -/
theorem read_snd (X : SArg.Idx → EReal) (b : Fin 64) (i j : Fin 1024) (k : Fin 3) :
    val_main_v4 (F := Ideal) X (idx_main_v7 (ix3 b i j) k) = atom X b j k := by
  rw [val_main_v4_apply, val_main_v2_apply, val_main_v0_apply]
  unfold atom
  refine congrArg X (funext fun a => ?_)
  have hb := b.isLt; have hj := j.isLt; have hk := k.isLt
  match a with
  | ⟨0, _⟩ =>
    refine Fin.ext ?_
    show ((b.val * 1024 + j.val) * 3 + k.val) / 3072 = b.val
    omega
  | ⟨1, _⟩ =>
    refine Fin.ext ?_
    show ((b.val * 1024 + j.val) * 3 + k.val) % 3072 = j.val * 3 + k.val
    omega

/-- One squared coordinate difference. -/
theorem read_sq (X : SArg.Idx → EReal) (b : Fin 64) (i j : Fin 1024) (k : Fin 3) :
    val_main_v6 (F := Ideal) X (idx_main_v7 (ix3 b i j) k)
      = (atom X b i k - atom X b j k) * (atom X b i k - atom X b j k) := by
  rw [val_main_v6_apply, val_main_v5_apply, read_fst, read_snd, Ideal.subf_def, Ideal.mulf_def]

/-- The regularized squared distance. -/
theorem stage9_eq (X : SArg.Idx → EReal) (b : Fin 64) (i j : Fin 1024) :
    val_main_v9 (F := Ideal) X (ix3 b i j) = sqDist X b i j + eps := by
  rw [val_main_v9_apply, val_main_v7_apply, val_main_v8_apply, val_main_cst_apply, val_main_cst_0_apply,
    Fin.sum_univ_three, read_sq, read_sq, read_sq, Ideal.addf_def, Ideal.ofBits_def, Ideal.ofBits_def,
    Ideal.ofBits_zero_f32, zero_add]
  rfl

/-- The indicator, as the reference reads it. -/
theorem stage23_eq (b : Fin 64) (i j : Fin 1024) :
    val_main_v23 (F := Ideal) (ix3 b i j) = upper i.val j.val := by
  rw [val_main_v23_apply, val_main_v22_apply, val_main_v17_apply, val_main_v16_apply, val_main_v14_apply,
    val_main_v12_apply, val_main_v11_apply, val_main_v15_apply, val_main_v13_apply, val_main_v11_apply]
  exact mask_eq i j

/-- The clamped, masked violation. -/
theorem stage24_eq (X : SArg.Idx → EReal) (b : Fin 64) (i j : Fin 1024) :
    val_main_v24 (F := Ideal) X (ix3 b i j) = viol X b i j := by
  rw [val_main_v24_apply, val_main_v21_apply, val_main_v19_apply, val_main_v18_apply, val_main_cst_1_apply,
    val_main_v10_apply, stage9_eq, val_main_v20_apply, val_main_cst_2_apply, stage23_eq,
    Ideal.hostUnary_sqrt_def, Ideal.ofBits_def, Ideal.ofBits_def, Ideal.subf_def, Ideal.maximumf_def,
    Ideal.mulf_def]
  rfl

/-- The reference's penalty of the ordered pair (i, j) in configuration b. -/
theorem stage25_eq (X : SArg.Idx → EReal) (b : Fin 64) (i j : Fin 1024) :
    val_main_v25 (F := Ideal) X (ix3 b i j) = pen X b i j := by
  rw [val_main_v25_apply, stage24_eq, Ideal.mulf_def]
  rfl

/-- The reference's result is the loss. -/
theorem stage28_eq (X : SArg.Idx → EReal) :
    val_main_v28 (F := Ideal) X = fun _ => loss X := by
  funext i
  rw [val_main_v28_apply, val_main_v27_apply, val_main_v26_apply, val_main_cst_3_apply, val_main_cst_4_apply,
    val_main_cst_5_apply, Cert.SumLaws.sum_idx3]
  simp only [stage25_eq]
  rw [Ideal.hostDivf_def, Ideal.mulf_def, Ideal.ofBits_def, Ideal.ofBits_def, Ideal.ofBits_def]
  rfl

end Cert.Collapse.Ref

end
-- ==== Proof.lean ====
/-
  A pairwise-distance collapse loss: the kernel against its array-language reference, over the extended reals.

  The argument is 64 configurations of 1024 points in space. Both programs compute
  `w · (0 + ∑_b ∑_{i,j} (max (τ − √(|p_i − p_j|² + ε), 0) · [i < j])²) / 64`, the same words for `w`, `τ`, `ε`, `0`
  and `64` on both sides (Proof/Spec.lean states this number once, as `loss`).

  * The reference forms all 64 · 1024 · 1024 · 3 coordinate differences, sums the three squares of each pair
    from zero, and sums all pairs at once (Proof/RefLoss.lean: its last stage is `loss`).
  * The kernel visits 64 · 8 tiles of 128 row points against all 1024 column points, keeps one running number,
    zeroed at the first tile, adds each tile's row sums of column sums to it, and writes it back once at the
    end; three host operations finish (Proof/TileDist.lean, TileSum.lean, TileValue.lean: one tile;
    Proof/CaseValues.lean, Blocks.lean, Accumulated.lean: the running number after each tile;
    Proof/KernelRun.lean: the write-back and the host operations).
  * The two groupings of the sum agree because addition of extended reals is commutative and associative
    (Proof/SumLaws.lean, Regroup.lean); nothing else is used, so the precondition that the inputs are finite
    is never opened. A three-term sum started from zero is the kernel's `(a + b) + c`; the square root and the
    maximum are the same functions on both sides; the kernel's mask (a signed conversion of a widened
    comparison bit of row number `128 u + r` against the column number) and the reference's (an unsigned
    conversion of the comparison bit of the two point numbers) are both the indicator of `i < j`.

  The three frames: the two kernels' are the generated frame certificates, the reference's is its generated
  run with the result dropped. The idealization rewrote nothing, so `preserves` is trivial.
-/
import proofs.«144549_j63127429317292_1_alg».proof.Defs
import proofs.«144549_j63127429317292_1_alg».proof.Proof.Gen.Kernel
import proofs.«144549_j63127429317292_1_alg».proof.Proof.Gen.Kernel.Skeleton
import proofs.«144549_j63127429317292_1_alg».proof.Proof.Gen.Kernel.Launch
import proofs.«144549_j63127429317292_1_alg».proof.Proof.Gen.Kernel.Points
import proofs.«144549_j63127429317292_1_alg».proof.Proof.Gen.Kernel.Frame
import proofs.«144549_j63127429317292_1_alg».proof.Proof.Gen.KernelIdeal
import proofs.«144549_j63127429317292_1_alg».proof.Proof.Gen.KernelIdeal.Skeleton
import proofs.«144549_j63127429317292_1_alg».proof.Proof.Gen.KernelIdeal.Launch
import proofs.«144549_j63127429317292_1_alg».proof.Proof.Gen.KernelIdeal.Points
import proofs.«144549_j63127429317292_1_alg».proof.Proof.Gen.KernelIdeal.Frame
import proofs.«144549_j63127429317292_1_alg».proof.Proof.Gen.ReferenceIdeal
import proofs.«144549_j63127429317292_1_alg».proof.Proof.Gen.Pre_finite_inputs
import proofs.«144549_j63127429317292_1_alg».proof.Proof.Gen.ReferenceIdeal.Run
import proofs.«144549_j63127429317292_1_alg».proof.Proof.Gen.ReferenceIdeal.Read
import proofs.«144549_j63127429317292_1_alg».proof.Proof.KernelRun
import proofs.«144549_j63127429317292_1_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the argument, the idealized kernel ends at the loss of its argument and the
    idealized reference at the loss of its own, which is the same array. -/
theorem algebraic : Cert.algebraic_KernelIdeal_ReferenceIdeal := by
  intro m ρ m' ρ' _ hagree
  refine ⟨fun c => fun _ => Cert.Collapse.loss (Cert.Collapse.Kernel.arg m c), Cert.Collapse.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.Collapse.Ref.stage28_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
